-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x26x1000 : Shape := ⟨3, ![4096, 26, 1000]⟩
abbrev S1000x16 : Shape := ⟨2, ![1000, 16]⟩
abbrev S_ : Shape := ⟨0, ![]⟩

class Facts : Prop where
  bcast_S_S4096x26x1000 : S_.BroadcastsInDim S4096x26x1000 (![] : Fin 0 → Fin S4096x26x1000.rank)
  reducesTo_S4096x26x1000_S_d0_1_2 : S4096x26x1000.ReducesTo [0, 1, 2] S_
  h_S_ : 0 < S_.numel
  bcast_S_S1000x16 : S_.BroadcastsInDim S1000x16 (![] : Fin 0 → Fin S1000x16.rank)
  reducesTo_S1000x16_S_d0_1 : S1000x16.ReducesTo [0, 1] S_

variable [Facts]

def fn {F : FTy → Type} [FloatOps F] (main_arg0 : FVec F S4096x26x1000 .f32) (main_arg1 : FVec F S1000x16 .f32) : IVec S_ 1 :=
  let main_v0 : FVec F S4096x26x1000 .f32 := Host.absf main_arg0
  let main_cst : FVec F S_ .f32 := constant S_ .f32 0x7F800000#32
  let main_v1 : FVec F S4096x26x1000 .f32 := broadcastInDim S4096x26x1000 ![] bcast_S_S4096x26x1000 main_cst
  let main_v2 : IVec S4096x26x1000 1 := cmpf .olt main_v0 main_v1
  let main_c : IVec S_ 1 := constantI S_ 1 1#1
  let main_v3 : IVec S_ 1 := (fun x v => Host.reduce IntOp.andi x v reducesTo_S4096x26x1000_S_d0_1_2 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  main_v8
-- ==== Kernel.lean ====
abbrev S4096x26x1000 : Shape := ⟨3, ![4096, 26, 1000]⟩
abbrev S1000x16 : Shape := ⟨2, ![1000, 16]⟩
abbrev S26x1000x4096 : Shape := ⟨3, ![26, 1000, 4096]⟩
abbrev S16x1000 : Shape := ⟨2, ![16, 1000]⟩
abbrev S26x16x4096 : Shape := ⟨3, ![26, 16, 4096]⟩
abbrev S1x1000x2048 : Shape := ⟨3, ![1, 1000, 2048]⟩
abbrev S1x16x2048 : Shape := ⟨3, ![1, 16, 2048]⟩
abbrev S1000x2048 : Shape := ⟨2, ![1000, 2048]⟩
abbrev S16x2048 : Shape := ⟨2, ![16, 2048]⟩
abbrev S4096x26x16 : Shape := ⟨3, ![4096, 26, 16]⟩

abbrev nBuf : Space → Nat
  | .hbm => 6
  | .vmem => 5
  | .smem => 0
  | _ => 0

abbrev bufTy : (tb : Table) → Fin (tcTables nBuf tb) → BufTy
  | .hbm, ⟨0, _⟩ => ⟨S4096x26x1000, .f32⟩
  | .hbm, ⟨1, _⟩ => ⟨S1000x16, .f32⟩
  | .hbm, ⟨2, _⟩ => ⟨S26x1000x4096, .f32⟩
  | .hbm, ⟨3, _⟩ => ⟨S16x1000, .f32⟩
  | .hbm, ⟨4, _⟩ => ⟨S26x16x4096, .f32⟩
  | .hbm, ⟨5, _⟩ => ⟨S4096x26x16, .f32⟩
  | .local _ .vmem, ⟨0, _⟩ => ⟨S1x1000x2048, .f32⟩
  | .local _ .vmem, ⟨1, _⟩ => ⟨S1x1000x2048, .f32⟩
  | .local _ .vmem, ⟨2, _⟩ => ⟨S16x1000, .f32⟩
  | .local _ .vmem, ⟨3, _⟩ => ⟨S1x16x2048, .f32⟩
  | .local _ .vmem, ⟨4, _⟩ => ⟨S1x16x2048, .f32⟩
  | _, _ => ⟨S4096x26x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![26, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4096x26x1000_S26x1000x4096_1_2_0 : S4096x26x1000.Transposes [1, 2, 0] S26x1000x4096
  transposes_S1000x16_S16x1000_1_0 : S1000x16.Transposes [1, 0] S16x1000
  inb_S16x1000_S16x1000_0_0 : ∀ a, (![0, 0] : Fin 2 → Nat) a + S16x1000.size a ≤ S16x1000.size a
  h_S16x1000 : 0 < S16x1000.numel
  shapeCasts_S16x1000_S16x1000 : S16x1000.ShapeCasts S16x1000
  inb_S1x1000x2048_S1x1000x2048_0_0_0 : ∀ a, (![0, 0, 0] : Fin 3 → Nat) a + S1x1000x2048.size a ≤ S1x1000x2048.size a
  h_S1x1000x2048 : 0 < S1x1000x2048.numel
  shapeCasts_S1x1000x2048_S1000x2048 : S1x1000x2048.ShapeCasts S1000x2048
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  shapeCasts_S16x2048_S1x16x2048 : S16x2048.ShapeCasts S1x16x2048
  transposes_S26x16x4096_S4096x26x16_2_0_1 : S26x16x4096.Transposes [2, 0, 1] S4096x26x16
  dot_S16x1000_S1000x2048_S16x2048_1_0_0_1_n_n_wf : DotDims.WF S16x1000 S1000x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x2048.size a ≤ S26x1000x4096.size a
  hwx0_0 : ∀ i : grid0.Coords, EltTy.bits .f32 = 32 ∨ (Rect.block (s := S26x1000x4096) S1x1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1000.size a ≤ S16x1000.size a
  hwx0_1 : ∀ i : grid0.Coords, EltTy.bits .f32 = 32 ∨ (Rect.block (s := S16x1000) S16x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x2048.size a ≤ S26x16x4096.size a
  hwx0_2 : ∀ i : grid0.Coords, EltTy.bits .f32 = 32 ∨ (Rect.block (s := S26x16x4096) S1x16x2048.size (cc0_transform_2 i) (hinb0_2 i)).WholeWords (EltTy.packing .f32)

variable [Facts₀]

def dot_S16x1000_S1000x2048_S16x2048_1_0_0_1_n_n : DotDims S16x1000 S1000x2048 S16x2048 where
  lhsContracting := [1]
  rhsContracting := [0]
  lhsNonContracting := [0]
  rhsNonContracting := [1]
  lhsBatch := []
  rhsBatch := []
  wf := dot_S16x1000_S1000x2048_S16x2048_1_0_0_1_n_n_wf

abbrev win0_0 : Pipeline.Window sig grid0 :=
  Pipeline.Window.ofSpec (Memref.whole main_v0) S1x1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x26x1000 : Shape := ⟨3, ![4096, 26, 1000]⟩
abbrev S1000x16 : Shape := ⟨2, ![1000, 16]⟩
abbrev S106496x1000 : Shape := ⟨2, ![106496, 1000]⟩
abbrev S106496x16 : Shape := ⟨2, ![106496, 16]⟩
abbrev S4096x26x16 : Shape := ⟨3, ![4096, 26, 16]⟩

abbrev nBuf : Space → Nat
  | .hbm => 5
  | .vmem => 0
  | .smem => 0
  | _ => 0

abbrev bufTy : (tb : Table) → Fin (tcTables nBuf tb) → BufTy
  | .hbm, ⟨0, _⟩ => ⟨S4096x26x1000, .f32⟩
  | .hbm, ⟨1, _⟩ => ⟨S1000x16, .f32⟩
  | .hbm, ⟨2, _⟩ => ⟨S106496x1000, .f32⟩
  | .hbm, ⟨3, _⟩ => ⟨S106496x16, .f32⟩
  | .hbm, ⟨4, _⟩ => ⟨S4096x26x16, .f32⟩
  | _, _ => ⟨S4096x26x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4096x26x1000_S106496x1000 : S4096x26x1000.ShapeCasts S106496x1000
  shapeCasts_S106496x16_S4096x26x16 : S106496x16.ShapeCasts S4096x26x16
  dot_S106496x1000_S1000x16_S106496x16_1_0_0_1_n_n_wf : DotDims.WF S106496x1000 S1000x16 S106496x16 [1] [0] [0] [1] [] []

variable [Facts₀]

def dot_S106496x1000_S1000x16_S106496x16_1_0_0_1_n_n : DotDims S106496x1000 S1000x16 S106496x16 where
  lhsContracting := [1]
  rhsContracting := [0]
  lhsNonContracting := [0]
  rhsNonContracting := [1]
  lhsBatch := []
  rhsBatch := []
  wf := dot_S106496x1000_S1000x16_S106496x16_1_0_0_1_n_n_wf

class Facts : Prop extends Facts₀ where

variable [Facts]
-- ==== Proof.BagSum.lean ====
/-
  The bag sum, as one function of the two argument arrays.

  The scores `x` have shape [4096, 26, 1000] (batch, timestep, code) and the table `w` has shape
  [1000, 16] (code, feature). Entry (b, t, e) of the result is the sum over the 1000 codes k of
  x[b, t, k] · w[k, e].

  The pallas region computes the same numbers in the transposed layout [26, 16, 4096]
  (timestep, feature, batch) from the transposed operands xT[t, k, b] = x[b, t, k] and
  wT[e, k] = w[k, e], with the factors in the other order: entry (t, e, b) is the sum over k of
  wT[e, k] · xT[t, k, b]. Multiplication of extended reals is commutative, so after the three
  transposes are read at an index the two sums agree term by term; no finiteness is needed.
-/
import Idealize.ShloMosaic.PureOps.Ideal
import Idealize.ShloMosaic.Lib.ValueIdx

noncomputable section

namespace Cert.BagSum

open Idealize.ShloMosaic Idealize.ShloMosaic.ValueIdx

/-- Scores: batch × timestep × code. -/
abbrev Scores : Shape := ⟨3, ![4096, 26, 1000]⟩
/-- Table: code × feature. -/
abbrev Table : Shape := ⟨2, ![1000, 16]⟩
/-- Result: batch × timestep × feature. -/
abbrev Bags : Shape := ⟨3, ![4096, 26, 16]⟩
/-- Scores as the region reads them: timestep × code × batch. -/
abbrev ScoresT : Shape := ⟨3, ![26, 1000, 4096]⟩
/-- Table as the region reads it: feature × code. -/
abbrev TableT : Shape := ⟨2, ![16, 1000]⟩
/-- Result as the region writes it: timestep × feature × batch. -/
abbrev BagsT : Shape := ⟨3, ![26, 16, 4096]⟩

/-- One entry of the bag sum: Σ_k x[b, t, k] · w[k, e]. -/
def bagAt (x : Scores.Idx → EReal) (w : Table.Idx → EReal) (b : Fin 4096) (t : Fin 26) (e : Fin 16) : EReal :=
  ∑ k : Fin 1000, x (ix3 b t k) * w (ix2 k e)

/-- The bag sum as an array. -/
def bagSum (x : Scores.Idx → EReal) (w : Table.Idx → EReal) : Bags.Idx → EReal :=
  fun i => bagAt x w (i 0) (i 1) (i 2)

theorem bagSum_ix3 (x : Scores.Idx → EReal) (w : Table.Idx → EReal) (b : Fin 4096) (t : Fin 26) (e : Fin 16) :
    bagSum x w (ix3 b t e) = ∑ k : Fin 1000, x (ix3 b t k) * w (ix2 k e) := rfl

/-- One entry of what the region writes: Σ_k wT[e, k] · xT[t, k, b]. -/
def regionAt (xT : ScoresT.Idx → EReal) (wT : TableT.Idx → EReal) (t : Fin 26) (e : Fin 16) (b : Fin 4096) : EReal :=
  ∑ k : Fin 1000, wT (ix2 e k) * xT (ix3 t k b)

/-- What the region writes, as an array in its own layout. -/
def regionSum (xT : ScoresT.Idx → EReal) (wT : TableT.Idx → EReal) : BagsT.Idx → EReal :=
  fun j => regionAt xT wT (j 0) (j 1) (j 2)

theorem regionSum_ix3 (xT : ScoresT.Idx → EReal) (wT : TableT.Idx → EReal) (t : Fin 26) (e : Fin 16) (b : Fin 4096) :
    regionSum xT wT (ix3 t e b) = ∑ k : Fin 1000, wT (ix2 e k) * xT (ix3 t k b) := rfl

/-- With the operands the transposes of `x` and `w`, the region's entry (t, e, b) is the bag sum's entry (b, t, e):
    the same 1000 products, each with its factors exchanged. -/
theorem regionAt_transposed (x : Scores.Idx → EReal) (w : Table.Idx → EReal)
    (xT : ScoresT.Idx → EReal) (wT : TableT.Idx → EReal)
    (hx : ∀ (t : Fin 26) (k : Fin 1000) (b : Fin 4096), xT (ix3 t k b) = x (ix3 b t k))
    (hw : ∀ (e : Fin 16) (k : Fin 1000), wT (ix2 e k) = w (ix2 k e))
    (b : Fin 4096) (t : Fin 26) (e : Fin 16) :
    regionAt xT wT t e b = bagAt x w b t e := by
  unfold regionAt bagAt
  refine Finset.sum_congr rfl fun k _ => ?_
  rw [hx, hw, mul_comm]

end Cert.BagSum

end
-- ==== Proof.BlockProduct.lean ====
/-
  What one grid point computes, read at an index.

  At a grid point the body loads the whole [16, 1000] table block `wT` and one [1, 1000, 2048] block `xT`
  of the transposed scores, drops the block's leading unit axis, multiplies the two matrices into a zero
  accumulator and stores the [16, 2048] product under a new leading unit axis. On the extended reals the
  matrix product into zero is the plain sum over the contracted axis, so the stored value at (0, e, b) is
  the sum over k of wT[e, k] · xT[0, k, b].
-/
import proofs.«113130_g6932077216269_cont_sun_m_908_10_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen
open Idealize.ShloMosaic Idealize.ShloMosaic.ValueIdx

/-- The body's matrix product: [16, 1000] × [1000, 2048] → [16, 2048], contracting axis 1 with axis 0. -/
abbrev mm : DotDims S16x1000 S1000x2048 S16x2048 := dot_S16x1000_S1000x2048_S16x2048_1_0_0_1_n_n

/-- The left operand is read at the output's row … -/
theorem lhs_row (i : S16x2048.Idx) (q : mm.contr.Idx) : (mm.lhsIdx i q 0).val = (i 0).val := by
  unfold DotDims.lhsIdx
  rw [dif_neg (show ¬(0 : Fin S16x1000.rank) ∈ mm.lhsBatch by decide), dif_pos (show (0 : Fin S16x1000.rank) ∈ mm.lhsNonContracting by decide)]
  rfl
/-- … and the contraction index; -/
theorem lhs_col (i : S16x2048.Idx) (q : mm.contr.Idx) : (mm.lhsIdx i q 1).val = (q ⟨0, by decide⟩).val :=
  mm.lhsIdx_val_of_single rfl i q
/-- the right operand at the contraction index … -/
theorem rhs_row (i : S16x2048.Idx) (q : mm.contr.Idx) : (mm.rhsIdx i q 0).val = (q ⟨0, by decide⟩).val :=
  mm.rhsIdx_val_of_single rfl i q
/-- … and the output's column. -/
theorem rhs_col (i : S16x2048.Idx) (q : mm.contr.Idx) : (mm.rhsIdx i q 1).val = (i 1).val := by
  unfold DotDims.rhsIdx
  rw [dif_neg (show ¬(1 : Fin S1000x2048.rank) ∈ mm.rhsBatch by decide), dif_pos (show (1 : Fin S1000x2048.rank) ∈ mm.rhsNonContracting by decide)]
  rfl

/-- The matrix product into a zero accumulator, at (e, b): Σ_k l[e, k] · r[k, b]. -/
theorem product_apply (l : FVec Ideal S16x1000 .f32) (r : FVec Ideal S1000x2048 .f32) (e : Fin 16) (b : Fin 2048) :
    matmul mm none l r (constant (F := Ideal) S16x2048 .f32 0x00000000#32) (ix2 e b)
      = ∑ k : Fin 1000, l (ix2 e k) * r (ix2 k b) := by
  refine (Ideal.matmul_constant_zero_apply mm none l r (ix2 e b)).trans ?_
  rw [← Equiv.sum_comp (contrEquiv1 mm 1000 rfl rfl).symm]
  refine Finset.sum_congr rfl fun k _ => ?_
  have hk := contrEquiv1_symm_val mm 1000 rfl rfl k
  have el : mm.lhsIdx (ix2 e b) ((contrEquiv1 mm 1000 rfl rfl).symm k) = ix2 e k := funext fun a => Fin.ext (by
    match a with
    | ⟨0, _⟩ => exact lhs_row _ _
    | ⟨1, _⟩ => exact (lhs_col _ _).trans hk)
  have er : mm.rhsIdx (ix2 e b) ((contrEquiv1 mm 1000 rfl rfl).symm k) = ix2 k b := funext fun a => Fin.ext (by
    match a with
    | ⟨0, _⟩ => exact (rhs_row _ _).trans hk
    | ⟨1, _⟩ => exact rhs_col _ _)
  rw [el, er]

/-- What the body stores, at (u, e, b) of the [1, 16, 2048] block: Σ_k wT[e, k] · xT[0, k, b]. -/
theorem stored_apply (wT : Vec Ideal S16x1000 .f32) (xT : Vec Ideal S1x1000x2048 .f32) (u : Fin 1) (e : Fin 16) (b : Fin 2048) :
    k0_pay1 (F := Ideal) wT xT (ix3 u e b) = ∑ k : Fin 1000, wT (ix2 e k) * xT (ix3 (0 : Fin 1) k b) := by
  unfold k0_pay1
  refine (shapeCast_ab_1ab_apply _ _ u e b).trans ?_
  refine (product_apply _ _ e b).trans ?_
  refine Finset.sum_congr rfl fun k _ => ?_
  rw [shapeCast_self, shapeCast_1ab_ab_apply]

end Cert.KernelIdeal.BlockValue

end
-- ==== Proof.RegionArray.lean ====
/-
  The array the region leaves behind.

  The grid has 26 × 2 points. Point (p, q) reads block (p, 0, q) of the transposed scores — timestep p, all 1000
  codes, batch columns 2048·q … 2048·q + 2047 —, reads the whole transposed table, and writes block (p, 0, q) of the
  output — timestep p, all 16 features, the same 2048 batch columns. So what a point writes back is the
  restriction to its block of ONE function of the two operand arrays, `regionSum`; the 52 blocks tile the
  [26, 16, 4096] output (entry (t, e, b) lies in the block of point (t, b / 2048)); hence after the last point the
  output array is `regionSum` of the operands as the region found them.
-/
import proofs.«113130_g6932077216269_cont_sun_m_908_10_alg».proof.Proof.Gen.KernelIdeal.Frame
import proofs.«113130_g6932077216269_cont_sun_m_908_10_alg».proof.Proof.BagSum
import proofs.«113130_g6932077216269_cont_sun_m_908_10_alg».proof.Proof.BlockProduct
import Idealize.ShloMosaic.Lib.Pipeline.Value

noncomputable section

namespace Cert.KernelIdeal.RegionValue

open Cert.KernelIdeal Cert.KernelIdeal.Gen Cert.KernelIdeal.BlockValue Cert.BagSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem off3 : (![0, 0, 0] : Fin 3 → Nat) = fun _ => 0 := funext fun a => by fin_cases a <;> rfl
theorem off2 : (![0, 0] : Fin 2 → Nat) = fun _ => 0 := funext fun a => by fin_cases a <;> rfl

/-- The three index maps over the 52 points: the scores' block moves with the output's on the timestep and batch
    axes and stays at 0 on the code axis; the table's block never moves; the output's block stays at 0 on the
    feature axis, and its timestep and batch block indices stay below 26 and 2. -/
theorem index_maps : ∀ t : Fin cfg0.N,
    win0_0.index t (0 : Fin 3) = win0_2.index t (0 : Fin 3)
    ∧ win0_0.index t (1 : Fin 3) = 0
    ∧ win0_0.index t (2 : Fin 3) = win0_2.index t (2 : Fin 3)
    ∧ win0_1.index t (0 : Fin 2) = 0
    ∧ win0_1.index t (1 : Fin 2) = 0
    ∧ win0_2.index t (1 : Fin 3) = 0
    ∧ win0_2.index t (0 : Fin 3) ≤ 25
    ∧ win0_2.index t (2 : Fin 3) ≤ 1 :=
  (by decide +kernel : ∀ t : Fin grid0.N, _)

/-- Every (timestep, batch half) is some point's output block. -/
theorem index_onto : ∀ (p : Fin 26) (q : Fin 2), ∃ t : Fin cfg0.N, win0_2.index t = ![p.val, 0, q.val] :=
  (by decide +kernel : ∀ (p : Fin 26) (q : Fin 2), ∃ t : Fin grid0.N, win0_2.index t = ![p.val, 0, q.val])

/-- The scores' block at point `t`, at (0, k, b): the transposed scores at any index `i` whose timestep is the output
    block's, whose code is k and whose batch column is b inside the output block's half. -/
theorem scores_block (c : Dev nD) (t : Fin cfg0.N) (k : Fin 1000) (b : Fin 2048) (i : S26x1000x4096.Idx)
    (h0 : (i 0).val = win0_2.index t (0 : Fin 3)) (h1 : (i 1).val = k.val)
    (h2 : (i 2).val = win0_2.index t (2 : Fin 3) * 2048 + b.val) :
    (iblk m c 0 t : Vec Ideal S1x1000x2048 .f32) (ix3 (0 : Fin 1) k b) = V m c main_v0 i := by
  obtain ⟨e0, e1, e2, -, -, -, -, -⟩ := index_maps t
  show V m c main_v0 (((cfg0.win 0).blk t).view.emb (ix3 (0 : Fin 1) k b)) = V m c main_v0 i
  refine congrArg _ (funext fun a => Fin.ext ?_)
  match a with
  | ⟨0, _⟩ => show win0_0.index t (0 : Fin 3) * 1 + 1 * (0 : Fin 1).val = (i 0).val; rw [e0, h0]; simp
  | ⟨1, _⟩ => show win0_0.index t (1 : Fin 3) * 1000 + 1 * k.val = (i 1).val; rw [e1, h1]; omega
  | ⟨2, _⟩ => show win0_0.index t (2 : Fin 3) * 2048 + 1 * b.val = (i 2).val; rw [e2, h2]; omega

/-- The table's block at any point is the whole transposed table. -/
theorem table_block (c : Dev nD) (t : Fin cfg0.N) (e : Fin 16) (k : Fin 1000) :
    (iblk m c 1 t : Vec Ideal S16x1000 .f32) (ix2 e k) = V m c main_v1 (ix2 e k) := by
  obtain ⟨-, -, -, e3, e4, -, -, -⟩ := index_maps t
  show V m c main_v1 (((cfg0.win 1).blk t).view.emb (ix2 e k)) = V m c main_v1 (ix2 e k)
  refine congrArg _ (funext fun a => Fin.ext ?_)
  match a with
  | ⟨0, _⟩ => show win0_1.index t (0 : Fin 2) * 16 + 1 * e.val = e.val; rw [e3]; omega
  | ⟨1, _⟩ => show win0_1.index t (1 : Fin 2) * 1000 + 1 * k.val = k.val; rw [e4]; omega

/-- WHAT POINT `t` WRITES BACK is block `t` of `regionSum` of the operand arrays as the region finds them. -/
theorem flushed_eq (c : Dev nD) (t : Fin cfg0.N) :
    (dats m 0 c).flushed 2 t
      = ((cfg0.win 2).blk t).view.read (Elt Ideal) (regionSum (V m c main_v0) (V m c main_v1)) := by
  show (cfg0.win 2).cut (grid0.coords t) ((dats m 0 c).after 2 t) = _
  rw [after0_2]
  unfold out0_2
  rw [View.canon_unit_zero off3]
  simp only [View.ld_unit_zero (S := S16x1000) off2, View.ld_unit_zero (S := S1x1000x2048) off3]
  obtain ⟨-, -, -, -, -, e5, l0, l2⟩ := index_maps t
  funext j
  obtain ⟨u, e, b, rfl⟩ : ∃ (u : Fin 1) (e : Fin 16) (b : Fin 2048), j = ix3 u e b := ⟨j 0, j 1, j 2, eq_ix3 j⟩
  have hu : u.val = 0 := by omega
  have hb : b.val < 2048 := b.isLt
  -- the array index under (u, e, b) of the block
  have hemb : ((cfg0.win 2).blk t).view.emb (ix3 u e b)
      = ix3 (⟨win0_2.index t (0 : Fin 3), by omega⟩ : Fin 26) e (⟨win0_2.index t (2 : Fin 3) * 2048 + b.val, by omega⟩ : Fin 4096) := by
    funext a; apply Fin.ext
    match a with
    | ⟨0, _⟩ => show win0_2.index t (0 : Fin 3) * 1 + 1 * u.val = win0_2.index t (0 : Fin 3); omega
    | ⟨1, _⟩ => show win0_2.index t (1 : Fin 3) * 16 + 1 * e.val = e.val; omega
    | ⟨2, _⟩ => show win0_2.index t (2 : Fin 3) * 2048 + 1 * b.val = win0_2.index t (2 : Fin 3) * 2048 + b.val; omega
  show k0_pay1 (F := Ideal) (iblk m c 1 t) (iblk m c 0 t) (ix3 u e b)
    = regionSum (V m c main_v0) (V m c main_v1) (((cfg0.win 2).blk t).view.emb (ix3 u e b))
  rw [hemb, regionSum_ix3]
  refine (stored_apply _ _ u e b).trans ?_
  refine Finset.sum_congr rfl fun k _ => ?_
  rw [table_block m c t e k, scores_block m c t k b (ix3 (⟨win0_2.index t (0 : Fin 3), by omega⟩ : Fin 26) k
    (⟨win0_2.index t (2 : Fin 3) * 2048 + b.val, by omega⟩ : Fin 4096)) rfl rfl rfl]

/-- An index of the output array is in point `t`'s block iff each coordinate is in the block's range on its axis. -/
theorem mem_block (t : Fin cfg0.N) (i : S26x16x4096.Idx) :
    i ∈ ((cfg0.win 2).blk t).view.set ↔ ∀ a : Fin 3, win0_2.index t a * S1x16x2048.size a ≤ (i a).val
      ∧ (i a).val < win0_2.index t a * S1x16x2048.size a + S1x16x2048.size a := by
  show i ∈ ((View.whole main_v2).slice (win0_2.rect t)).set ↔ _
  rw [View.set_slice_whole, Rect.mem_set_unit]
  exact Iff.rfl

/-- The blocks tile the output: entry (t, e, b) lies in the block of the point (t, b / 2048). -/
theorem covered (i : S26x16x4096.Idx) :
    ∃ t : Fin cfg0.N, (cfg0.win 2).flush t = true ∧ i ∈ ((cfg0.win 2).blk t).view.set := by
  have hi0 : (i 0).val < 26 := (i 0).isLt
  have hi1 : (i 1).val < 16 := (i 1).isLt
  have hi2 : (i 2).val < 4096 := (i 2).isLt
  obtain ⟨t, ht⟩ := index_onto ⟨(i 0).val, hi0⟩ ⟨(i 2).val / 2048, by omega⟩
  have q0 : win0_2.index t (0 : Fin 3) = (i 0).val := congrFun ht 0
  have q1 : win0_2.index t (1 : Fin 3) = 0 := congrFun ht 1
  have q2 : win0_2.index t (2 : Fin 3) = (i 2).val / 2048 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16 ≤ (i 1).val ∧ (i 1).val < win0_2.index t (1 : Fin 3) * 16 + 16; omega
  | ⟨2, _⟩ => show win0_2.index t (2 : Fin 3) * 2048 ≤ (i 2).val ∧ (i 2).val < win0_2.index t (2 : Fin 3) * 2048 + 2048; omega

/-- THE OUTPUT ARRAY after the last point: `regionSum` of the operand arrays as the region found them. -/
theorem region_array (c : Dev nD) :
    (dats m 0 c).arrAt 2 cfg0.N = regionSum (V m c main_v0) (V m c main_v1) :=
  (dats m 0 c).arrAt_eq_of_cover 2 (regionSum (V m c main_v0) (V m c main_v1)) (fun t _ => flushed_eq m c t) covered

end Cert.KernelIdeal.RegionValue

end
-- ==== Proof.KernelValue.lean ====
/-
  The kernel program's result.

  Before the region the program transposes both arguments: the region's first operand is
  xT[t, k, b] = x[b, t, k] and its second wT[e, k] = w[k, e]. After the region it transposes the region's output
  back: the result at (b, t, e) is the region's output at (t, e, b). With the region's output the function
  `regionSum` of the two operands, the result at (b, t, e) is Σ_k wT[e, k] · xT[t, k, b] = Σ_k w[k, e] · x[b, t, k], the bag
  sum's entry with every product's factors exchanged.
-/
import proofs.«113130_g6932077216269_cont_sun_m_908_10_alg».proof.Proof.RegionArray
import Idealize.ShloMosaic.Lib.StableHlo.Run
import Idealize.ShloMosaic.Lib.ValueLayout

noncomputable section

namespace Cert.KernelIdeal.BagValue

open Cert.KernelIdeal Cert.KernelIdeal.Gen Cert.KernelIdeal.RegionValue Cert.BagSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The three transposes, read at an index -/

/-- Scores to (timestep, code, batch): entry (t, k, b) is x[b, t, k]. -/
theorem scoresT_apply (x : S4096x26x1000.Idx → EReal) (t : Fin 26) (k : Fin 1000) (b : Fin 4096) :
    transpose S26x1000x4096 [1, 2, 0] x Facts₀.transposes_S4096x26x1000_S26x1000x4096_1_2_0 (ix3 t k b) = x (ix3 b t k) :=
  transpose_apply _ x _ _ _ fun a => match a with | ⟨0, _⟩ => rfl | ⟨1, _⟩ => rfl | ⟨2, _⟩ => rfl

/-- Table to (feature, code): entry (e, k) is w[k, e]. -/
theorem tableT_apply (w : S1000x16.Idx → EReal) (e : Fin 16) (k : Fin 1000) :
    transpose S16x1000 [1, 0] w Facts₀.transposes_S1000x16_S16x1000_1_0 (ix2 e k) = w (ix2 k e) :=
  transpose_ix2_apply w _ e k

/-- The region's output back to (batch, timestep, feature): entry (b, t, e) is y[t, e, b]. -/
theorem bags_apply (y : S26x16x4096.Idx → EReal) (b : Fin 4096) (t : Fin 26) (e : Fin 16) :
    transpose S4096x26x16 [2, 0, 1] y Facts₀.transposes_S26x16x4096_S4096x26x16_2_0_1 (ix3 b t e) = y (ix3 t e b) :=
  transpose_apply _ y _ _ _ fun a => match a with | ⟨0, _⟩ => rfl | ⟨1, _⟩ => rfl | ⟨2, _⟩ => rfl

/-! ## The operands as the region finds them -/

/-- The region's first operand is the transposed scores. -/
theorem operand_scores (c : Dev nD) :
    (V m c main_v0 : S26x1000x4096.Idx → EReal)
      = transpose S26x1000x4096 [1, 2, 0] (m ((c : Thread nD τ).loc main_arg0)) Facts₀.transposes_S4096x26x1000_S26x1000x4096_1_2_0 := by
  show StableHlo.after hostOps0 (fun b => m (c, b)) (Proc.devRef .tc main_v0) = _
  after_results

/-- The region's second operand is the transposed table. -/
theorem operand_table (c : Dev nD) :
    (V m c main_v1 : S16x1000.Idx → EReal)
      = transpose S16x1000 [1, 0] (m ((c : Thread nD τ).loc main_arg1)) Facts₀.transposes_S1000x16_S16x1000_1_0 := by
  show StableHlo.after hostOps0 (fun b => m (c, b)) (Proc.devRef .tc main_v1) = _
  after_results

/-! ## The result -/

/-- The program's result buffer after the last host operation: the region's output array transposed back. -/
theorem tail_result (c : Dev nD) :
    (Pipeline.afterTail₀ cfgs (dats m) 0 (V0 m) [hostOps1] c main_v3 : S4096x26x16.Idx → EReal)
      = transpose S4096x26x16 [2, 0, 1] (regionSum (V m c main_v0) (V m c main_v1)) Facts₀.transposes_S26x16x4096_S4096x26x16_2_0_1 := by
  unfold Pipeline.afterTail₀
  show StableHlo.after hostOps1 _ (Proc.devRef .tc main_v3) = _
  after_results
  rw [(Pipeline.withArrays_arr spec0 launch0.win.arr_inj c _ _ 2).trans (region_array m c)]

/-- That array is the bag sum of the two arguments. -/
theorem result_eq (c : Dev nD) :
    transpose S4096x26x16 [2, 0, 1] (regionSum (V m c main_v0) (V m c main_v1)) Facts₀.transposes_S26x16x4096_S4096x26x16_2_0_1
      = bagSum (m ((c : Thread nD τ).loc main_arg0)) (m ((c : Thread nD τ).loc main_arg1)) := by
  funext i
  obtain ⟨b, t, e, rfl⟩ : ∃ (b : Fin 4096) (t : Fin 26) (e : Fin 16), i = ix3 b t e := ⟨i 0, i 1, i 2, eq_ix3 i⟩
  rw [bags_apply]
  refine regionAt_transposed _ _ _ _ (fun t k b => ?_) (fun e k => ?_) b t e
  · rw [operand_scores, scoresT_apply]
  · rw [operand_table, tableT_apply]

/-- THE RUN, READ: every weakly fair execution of the program ends with the result buffer at the bag sum of the
    argument arrays and the arguments unchanged. -/
theorem run : θ_run defs (onTc (τ := τ) (main (F := Ideal))) ⟨m, fun _ => 0, ρ⟩ fun r => ∀ c : Dev nD,
      r.2.mem ((c.tc : Thread nD τ).loc main_v3) = bagSum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(((h c).2 main_v3 (Pipeline.mem_restRefs_of main_v3 (by decide) (by decide))).trans (tail_result m c)).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.BagValue

end
-- ==== Proof.ReferenceSum.lean ====
/-
  The reference computes the bag sum.

  The reference flattens the scores to [106496, 1000] (row r = b · 26 + t), multiplies by the table, and
  unflattens the [106496, 16] product to [4096, 26, 16]. Read at the index (b, t, e): the last reshape reads
  the product at row b · 26 + t and column e; the product there is the sum over k of the flattened scores at
  (b · 26 + t, k) times w[k, e]; and the flattened scores at (b · 26 + t, k) are x[b, t, k]. The three index
  computations are linear arithmetic on the coordinates.
-/
import proofs.«113130_g6932077216269_cont_sun_m_908_10_alg».proof.Proof.Gen.ReferenceIdeal.Read
import proofs.«113130_g6932077216269_cont_sun_m_908_10_alg».proof.Proof.BagSum

noncomputable section

namespace Cert.ReferenceIdeal.BagValue

open Cert.ReferenceIdeal Cert.ReferenceIdeal.Read Cert.BagSum
open Idealize.ShloMosaic Idealize.ShloMosaic.ValueIdx

/-- The column of the table the product reads at row-column (·, e) of the unflattened result, contraction index k. -/
theorem table_index (b : Fin 4096) (t : Fin 26) (e : Fin 16) (k : Fin 1000) :
    ridx_main_v1 (idx_main_v2 (ix3 b t e)) k = ix2 k e := by
  funext a
  apply Fin.ext
  have hb : b.val < 4096 := b.isLt
  have ht : t.val < 26 := t.isLt
  have he : e.val < 16 := e.isLt
  match a with
  | ⟨0, _⟩ => rfl
  | ⟨1, _⟩ => show ((b.val * 26 + t.val) * 16 + e.val) % 16 = e.val; omega

/-- The entry of the scores the product reads there: row b · 26 + t of the flattened scores, column k, is x[b, t, k]. -/
theorem scores_index (b : Fin 4096) (t : Fin 26) (e : Fin 16) (k : Fin 1000) :
    idx_main_v0 (lidx_main_v1 (idx_main_v2 (ix3 b t e)) k) = ix3 b t k := by
  funext a
  apply Fin.ext
  have hb : b.val < 4096 := b.isLt
  have ht : t.val < 26 := t.isLt
  have he : e.val < 16 := e.isLt
  have hk : k.val < 1000 := k.isLt
  match a with
  | ⟨0, _⟩ => show (((b.val * 26 + t.val) * 16 + e.val) / 16 * 1000 + k.val) / 26000 = b.val; omega
  | ⟨1, _⟩ => show (((b.val * 26 + t.val) * 16 + e.val) / 16 * 1000 + k.val) / 1000 % 26 = t.val; omega
  | ⟨2, _⟩ => show (((b.val * 26 + t.val) * 16 + e.val) / 16 * 1000 + k.val) % 1000 = k.val; omega

/-- The reference's result, as the generated stage reads it, is the bag sum of its two arguments. -/
theorem result_eq (x : Scores.Idx → EReal) (w : Table.Idx → EReal) :
    val_main_v2 (F := Ideal) x w = bagSum x w := by
  funext i
  obtain ⟨b, t, e, rfl⟩ : ∃ (b : Fin 4096) (t : Fin 26) (e : Fin 16), i = ix3 b t e := ⟨i 0, i 1, i 2, eq_ix3 i⟩
  rw [val_main_v2_apply, val_main_v1_apply, bagSum_ix3]
  refine Finset.sum_congr rfl fun k _ => ?_
  rw [val_main_v0_apply, scores_index, table_index]

end Cert.ReferenceIdeal.BagValue

end
-- ==== Proof.lean ====
/-
  A bag sum computed as a dense matrix product, against its plain jnp form.

  The scores `x` have shape [4096, 26, 1000] (batch, timestep, code), the table `w` shape [1000, 16] (code, feature);
  the result at (b, t, e) is Σ_k x[b, t, k] · w[k, e].

  The reference flattens the first two axes of `x`, multiplies by `w` and unflattens: read at an index this is
  that sum (Proof/ReferenceSum.lean, over the generated stage-by-stage reading of the reference's run).

  The kernel program transposes `x` to (timestep, code, batch) and `w` to (feature, code), runs a 26 × 2 grid whose
  point (p, q) multiplies the whole transposed table into the [1000, 2048] slab of timestep p and batch half q and
  writes the [16, 2048] product as block (p, 0, q) of a [26, 16, 4096] array, and transposes that array to
  (batch, timestep, feature). A point's stored value read at an index is Σ_k wT[e, k] · xT[0, k, b]
  (Proof/BlockProduct.lean); the 52 blocks are restrictions of one function of the operands and tile the output
  (Proof/RegionArray.lean); the three transposes read at an index turn that function into
  Σ_k w[k, e] · x[b, t, k] (Proof/KernelValue.lean). The two sums differ only in the order of each product's
  factors, and multiplication of extended reals is commutative (Proof/BagSum.lean), so the claim holds for all
  inputs: the finiteness precondition is never opened.

  The three frames are the generated frame runs (the reference's is its generated run with the result dropped), and
  the idealization rewrote nothing, so `preserves` is trivial.
-/
import proofs.«113130_g6932077216269_cont_sun_m_908_10_alg».proof.Defs
import proofs.«113130_g6932077216269_cont_sun_m_908_10_alg».proof.Proof.Gen.Kernel
import proofs.«113130_g6932077216269_cont_sun_m_908_10_alg».proof.Proof.Gen.Kernel.Frame
import proofs.«113130_g6932077216269_cont_sun_m_908_10_alg».proof.Proof.Gen.KernelIdeal
import proofs.«113130_g6932077216269_cont_sun_m_908_10_alg».proof.Proof.Gen.KernelIdeal.Frame
import proofs.«113130_g6932077216269_cont_sun_m_908_10_alg».proof.Proof.Gen.ReferenceIdeal
import proofs.«113130_g6932077216269_cont_sun_m_908_10_alg».proof.Proof.Gen.Pre_finite_inputs
import proofs.«113130_g6932077216269_cont_sun_m_908_10_alg».proof.Proof.Gen.ReferenceIdeal.Run
import proofs.«113130_g6932077216269_cont_sun_m_908_10_alg».proof.Proof.Gen.ReferenceIdeal.Read
import proofs.«113130_g6932077216269_cont_sun_m_908_10_alg».proof.Proof.KernelValue
import proofs.«113130_g6932077216269_cont_sun_m_908_10_alg».proof.Proof.ReferenceSum

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the bag sum of the argument arrays in their result buffer: the kernel program by
    `Cert.KernelIdeal.BagValue.run`, the reference by its generated run read stage by stage
    (`Cert.ReferenceIdeal.BagValue.result_eq`), on arguments that agree. -/
theorem algebraic : Cert.algebraic_KernelIdeal_ReferenceIdeal := by
  intro m ρ m' ρ' _ hagree
  refine ⟨fun c => Cert.BagSum.bagSum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.BagValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.BagValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
